-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 57
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S128x128, .bf16⟩
  | .hbm, ⟨36, _⟩ => ⟨S1x128, .f32⟩
  | .hbm, ⟨37, _⟩ => ⟨S50000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S50000x1, .f32⟩
  | .hbm, ⟨52, _⟩ => ⟨S50000x128, .f32⟩
  | .hbm, ⟨53, _⟩ => ⟨S50000x128, .f32⟩
  | .hbm, ⟨54, _⟩ => ⟨S128x64, .bf16⟩
  | .hbm, ⟨55, _⟩ => ⟨S1x64, .f32⟩
  | .hbm, ⟨56, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x64, .bf16⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 62
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S50000x64, .f32⟩
  | .hbm, ⟨59, _⟩ => ⟨S1x64, .f32⟩
  | .hbm, ⟨60, _⟩ => ⟨S50000x64, .f32⟩
  | .hbm, ⟨61, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Layers.lean ====
/-
  The network both programs compute, as functions of whole arrays, and the reference read as that network.

  A layer is two steps. The AVERAGE over in-neighbours: every edge e carries row src e of the features to node dst e,
  a node adds up what arrives, and the sum is scaled by 1 / max(in-degree, 1). Both programs perform it by the same
  chain of host operations (the gather along the source list, the scatter-add along the target list, the product with
  the broadcast reciprocal degree), so it is carried here as ONE function of the feature array and the two edge lists
  and never opened. The DENSE step: entry (r, c) of the result is the sum over k of (row r, column k of the averaged
  features) times (row k, column c of the weights), plus entry c of the bias; the first layer then takes the maximum
  with zero.

  The reference applies these in the order average, dense with maximum, average, dense. Read one entry at a time its
  matrix product is the sum above, its bias a row spread over all rows, so its result is the composite stated at the
  end.
-/
import proofs.«164358_j11081015623722_1_alg».proof.Proof.Gen.ReferenceIdeal.Read

noncomputable section

namespace Cert.GraphConv

open Cert.ReferenceIdeal Cert.ReferenceIdeal.Read Idealize.ShloMosaic Idealize.ShloMosaic.TcCoe

section Average

variable {F : FTy → Type} [FloatOps F]

/-- The average over in-neighbours of a feature array `H`: rows gathered along the source list `x1` (a negative
    entry counted from the end), added up at the targets `x2`, each node's sum times 1 / max(in-degree, 1). -/
def average (H : (⟨S50000x128, .f32⟩ : BufTy).Contents (Elt F)) (x1 x2 : (⟨S800000, .i32⟩ : BufTy).Contents (Elt F)) :
    (⟨S50000x128, .f32⟩ : BufTy).Contents (Elt F) :=
  mulf (Host.scatterAdd scatter_S50000x128_S800000x1_S800000x128_1_0_0_1 (val_main_v15 (F := F)) (val_main_v16 (F := F) x2)
      (Host.gather gather_S50000x128_S800000x1_S800000x128_1_0_n_n_0_1_1128 H (val_main_v13 (F := F) x1)))
    (val_main_v19 (F := F) x2)

/-- The reference's first average is this function of the input features. -/
theorem average_first (x0 : (⟨S50000x128, .f32⟩ : BufTy).Contents (Elt F)) (x1 x2 : (⟨S800000, .i32⟩ : BufTy).Contents (Elt F)) :
    val_main_v20 (F := F) x0 x1 x2 = average x0 x1 x2 := rfl

/-- Its second average is the same function of the hidden features: the second chain of host operations repeats
    the first one operation for operation. -/
theorem average_second (x0 : (⟨S50000x128, .f32⟩ : BufTy).Contents (Elt F)) (x1 x2 : (⟨S800000, .i32⟩ : BufTy).Contents (Elt F))
    (x3 : (⟨S128x128, .f32⟩ : BufTy).Contents (Elt F)) (x4 : (⟨S128, .f32⟩ : BufTy).Contents (Elt F)) :
    val_main_v38 (F := F) x0 x1 x2 x3 x4 = average (val_main_v25 (F := F) x0 x1 x2 x3 x4) x1 x2 := rfl

end Average

/-- The first dense layer at entry `i = (r, c)`: max(∑ₖ X(r, k) · W(k, c) + B(0, c), 0); the bias a one-row array. -/
def hidden (X : (⟨S50000x128, .f32⟩ : BufTy).Contents (Elt Ideal)) (W : S128x128.Idx → EReal) (B : S1x128.Idx → EReal) :
    (⟨S50000x128, .f32⟩ : BufTy).Contents (Elt Ideal) :=
  fun i => max ((∑ k : Fin 128, X (lidx_main_v21 i k) * W (ridx_main_v21 i k)) + B (idx_main_v23 i)) (Ideal.ofBits .f32 0x00000000#32)

/-- The second dense layer at entry `i = (r, c)`: ∑ₖ X(r, k) · W(k, c) + B(0, c). -/
def output (X : (⟨S50000x128, .f32⟩ : BufTy).Contents (Elt Ideal)) (W : S128x64.Idx → EReal) (B : S1x64.Idx → EReal) :
    (⟨S50000x64, .f32⟩ : BufTy).Contents (Elt Ideal) :=
  fun i => (∑ k : Fin 128, X (lidx_main_v39 i k) * W (ridx_main_v39 i k)) + B (idx_main_v41 i)

/-- The whole network: average, dense with maximum, average, dense. -/
def net (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal))
    (x5 : (⟨S128x64, .f32⟩ : BufTy).Contents (Elt Ideal)) (x6 : (⟨S64, .f32⟩ : BufTy).Contents (Elt Ideal)) :
    (⟨S50000x64, .f32⟩ : BufTy).Contents (Elt Ideal) :=
  output (average (hidden (average x0 x1 x2) x3 (val_main_v22 (F := Ideal) x4)) x1 x2) x5 (val_main_v40 (F := Ideal) x6)

/-- The reference's hidden features are the first dense layer of the averaged input: its matrix product read at an
    entry is the sum over the contracted axis, its bias the one-row array spread over the rows, its maximum with the
    zero array the maximum with zero. -/
theorem reference_hidden (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal)) :
    val_main_v25 (F := Ideal) x0 x1 x2 x3 x4 = hidden (average x0 x1 x2) x3 (val_main_v22 (F := Ideal) x4) := by
  funext i
  rw [val_main_v25_apply, val_main_v24_apply, val_main_v21_apply, val_main_v23_apply, val_main_call0_v0_apply,
    val_main_call0_cst_apply, average_first]
  rfl

/-- The reference's result is the network of its arguments. -/
theorem reference_net (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal))
    (x5 : (⟨S128x64, .f32⟩ : BufTy).Contents (Elt Ideal)) (x6 : (⟨S64, .f32⟩ : BufTy).Contents (Elt Ideal)) :
    val_main_v42 (F := Ideal) x0 x1 x2 x3 x4 x5 x6 = net x0 x1 x2 x3 x4 x5 x6 := by
  funext i
  rw [val_main_v42_apply, val_main_v39_apply, val_main_v41_apply, average_second, reference_hidden]
  rfl

end Cert.GraphConv

end
-- ==== Proof.KernelRun.lean ====
/-
  The idealized kernel's run with its result named.

  @main is four segments: the first host stretch, the first layer's pipeline, the second host stretch, the second
  layer's pipeline. The buffer contents at the segment boundaries are a fold from the launch memory: a host stretch
  applies its operations, a pipeline leaves each of its arrays at what its write-backs fold to and every other buffer
  as it was. Every weakly fair execution terminates without a fault with every unscoped buffer at the last
  boundary's contents; read at the result buffer and at the seven arguments this is the statement below. The
  arguments are written by no operation and no pipeline, so they end as launched.
-/
import proofs.«164358_j11081015623722_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the
    last boundary of the fold gives it and the seven arguments as launched. -/
theorem run : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.ValueRun

end
-- ==== Proof.HostStretches.lean ====
/-
  The idealized kernel's two stretches of host operations, read at the buffers its pipelines stage.

  Before the first pipeline the host computes the average of the input features over in-neighbours, rounds the first
  weight matrix to the narrow format and reshapes the first bias to one row. Between the pipelines it computes the same
  average of the first pipeline's result, with the same edge lists and the same reciprocal degrees (computed once, in
  the first stretch, and left untouched by the pipeline), rounds the second weight matrix and reshapes the second
  bias. A buffer that no operation of a stretch and no write-back of a pipeline touches holds what it held before; the
  edge lists, weights and biases are such buffers all the way from the launch.
-/
import proofs.«164358_j11081015623722_1_alg».proof.Proof.Gen.KernelIdeal.Frame
import proofs.«164358_j11081015623722_1_alg».proof.Proof.Layers

set_option maxRecDepth 16384

noncomputable section

namespace Cert.KernelIdeal.HostValues

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## At the first pipeline's entry -/

set_option maxHeartbeats 1000000 in
/-- The first pipeline's features: the average of the input features over in-neighbours. -/
theorem entry0_features (c : Dev nD) :
    W1 m ρ c (Proc.devRef .tc main_v20) = Cert.GraphConv.average (m ((c : Thread nD τ).loc main_arg0)) (m ((c : Thread nD τ).loc main_arg1)) (m ((c : Thread nD τ).loc main_arg2)) := by
  show StableHlo.after hostOps0 (W0 m ρ c) (Proc.devRef .tc main_v20) = _
  after_results_simp
  rfl

set_option maxHeartbeats 1000000 in
/-- Its weights: the first weight matrix rounded to the narrow format. -/
theorem entry0_weights (c : Dev nD) :
    W1 m ρ c (Proc.devRef .tc main_v21) = truncf .bf16 (m ((c : Thread nD τ).loc main_arg3)) bitsLt_bf16_f32 := by
  show StableHlo.after hostOps0 (W0 m ρ c) (Proc.devRef .tc main_v21) = _
  after_results_simp

set_option maxHeartbeats 1000000 in
/-- Its bias: the first bias as a one-row array. -/
theorem entry0_bias (c : Dev nD) :
    W1 m ρ c (Proc.devRef .tc main_v22) = (fun i => shapeCast S1x128 (m ((c : Thread nD τ).loc main_arg4)) shapeCasts_S128_S1x128 i) := by
  show StableHlo.after hostOps0 (W0 m ρ c) (Proc.devRef .tc main_v22) = _
  after_results_simp
  rfl

set_option maxHeartbeats 1000000 in
/-- The reciprocal degrees, which the second stretch reads again. -/
theorem entry0_recip (c : Dev nD) :
    W1 m ρ c (Proc.devRef .tc main_v7) = Cert.ReferenceIdeal.Read.val_main_v7 (F := F) (m ((c : Thread nD τ).loc main_arg2)) := by
  show StableHlo.after hostOps0 (W0 m ρ c) (Proc.devRef .tc main_v7) = _
  after_results_simp
  rfl

/-! ## At the first pipeline's exit: what it did not write -/

set_option maxHeartbeats 1000000 in
theorem exit0_arg1 (c : Dev nD) : W2 m ρ c (Proc.devRef .tc main_arg1) = (m ((c : Thread nD τ).loc main_arg1)) := by
  rw [W2_of_ne m ρ c main_arg1 (by decide)]
  show StableHlo.after hostOps0 (W0 m ρ c) (Proc.devRef .tc main_arg1) = _
  after_results_simp

set_option maxHeartbeats 1000000 in
theorem exit0_arg2 (c : Dev nD) : W2 m ρ c (Proc.devRef .tc main_arg2) = (m ((c : Thread nD τ).loc main_arg2)) := by
  rw [W2_of_ne m ρ c main_arg2 (by decide)]
  show StableHlo.after hostOps0 (W0 m ρ c) (Proc.devRef .tc main_arg2) = _
  after_results_simp

set_option maxHeartbeats 1000000 in
theorem exit0_arg5 (c : Dev nD) : W2 m ρ c (Proc.devRef .tc main_arg5) = (m ((c : Thread nD τ).loc main_arg5)) := by
  rw [W2_of_ne m ρ c main_arg5 (by decide)]
  show StableHlo.after hostOps0 (W0 m ρ c) (Proc.devRef .tc main_arg5) = _
  after_results_simp

set_option maxHeartbeats 1000000 in
theorem exit0_arg6 (c : Dev nD) : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  after_results_simp

theorem exit0_recip (c : Dev nD) :
    W2 m ρ c (Proc.devRef .tc main_v7) = Cert.ReferenceIdeal.Read.val_main_v7 (F := F) (m ((c : Thread nD τ).loc main_arg2)) := by
  rw [W2_of_ne m ρ c main_v7 (by decide)]
  exact entry0_recip m ρ c

/-! ## At the second pipeline's entry -/

set_option maxHeartbeats 2000000 in
/-- The second pipeline's features: the average over in-neighbours of what the first pipeline left. -/
theorem entry1_features (c : Dev nD) :
    W3 m ρ c (Proc.devRef .tc main_v36)
      = Cert.GraphConv.average (W2 m ρ c (Proc.devRef .tc main_v23)) (m ((c : Thread nD τ).loc main_arg1)) (m ((c : Thread nD τ).loc main_arg2)) := by
  show StableHlo.after hostOps1 (W2 m ρ c) (Proc.devRef .tc main_v36) = _
  after_results_simp
  rw [exit0_arg1, exit0_arg2, exit0_recip]
  rfl

set_option maxHeartbeats 1000000 in
/-- Its weights: the second weight matrix rounded to the narrow format. -/
theorem entry1_weights (c : Dev nD) :
    W3 m ρ c (Proc.devRef .tc main_v37) = truncf .bf16 (m ((c : Thread nD τ).loc main_arg5)) bitsLt_bf16_f32 := by
  show StableHlo.after hostOps1 (W2 m ρ c) (Proc.devRef .tc main_v37) = _
  after_results_simp
  rw [exit0_arg5]

set_option maxHeartbeats 1000000 in
/-- Its bias: the second bias as a one-row array. -/
theorem entry1_bias (c : Dev nD) :
    W3 m ρ c (Proc.devRef .tc main_v38) = (fun i => shapeCast S1x64 (m ((c : Thread nD τ).loc main_arg6)) shapeCasts_S64_S1x64 i) := by
  show StableHlo.after hostOps1 (W2 m ρ c) (Proc.devRef .tc main_v38) = _
  after_results_simp
  rw [exit0_arg6]
  rfl

end Cert.KernelIdeal.HostValues

end
-- ==== Proof.Payload.lean ====
/-
  What one call of each kernel body stores, read at an entry of its output block.

  A body loads a 5000-row block of averaged features, the whole weight matrix and the one-row bias; it rounds the
  features to the weights' format (no change of value on the extended reals), multiplies into a zero accumulator,
  adds the bias row to every row, and the first layer's body takes the maximum with zero. At entry (p, q) of the
  block that is ∑ₖ x(p, k) · w(k, q) + b(0, q), and for the first layer the maximum of that with zero: the matrix
  product into a zero accumulator is the plain sum over its one contracted axis, the broadcast reads the bias's only
  row.
-/
import proofs.«164358_j11081015623722_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.TcCoe Idealize.ShloMosaic.ValueIdx

/-- The contraction record of the first layer's matrix product, under a short name. -/
abbrev dotHidden : DotDims S5000x128 S128x128 S5000x128 := dot_S5000x128_S128x128_S5000x128_1_0_0_1_n_n

theorem dotHidden_lhs0 (i : S5000x128.Idx) (q : dotHidden.contr.Idx) : (dotHidden.lhsIdx i q 0).val = (i 0).val := by
  unfold DotDims.lhsIdx
  rw [dif_neg (show ¬(0 : Fin S5000x128.rank) ∈ dotHidden.lhsBatch by decide), dif_pos (show (0 : Fin S5000x128.rank) ∈ dotHidden.lhsNonContracting by decide)]
  rfl
theorem dotHidden_lhs1 (i : S5000x128.Idx) (q : dotHidden.contr.Idx) : (dotHidden.lhsIdx i q 1).val = (q ⟨0, by decide⟩).val :=
  dotHidden.lhsIdx_val_of_single rfl i q
theorem dotHidden_rhs0 (i : S5000x128.Idx) (q : dotHidden.contr.Idx) : (dotHidden.rhsIdx i q 0).val = (q ⟨0, by decide⟩).val :=
  dotHidden.rhsIdx_val_of_single rfl i q
theorem dotHidden_rhs1 (i : S5000x128.Idx) (q : dotHidden.contr.Idx) : (dotHidden.rhsIdx i q 1).val = (i 1).val := by
  unfold DotDims.rhsIdx
  rw [dif_neg (show ¬(1 : Fin S128x128.rank) ∈ dotHidden.rhsBatch by decide), dif_pos (show (1 : Fin S128x128.rank) ∈ dotHidden.rhsNonContracting by decide)]
  rfl

/-- The first layer's matrix product into a zero accumulator, read at entry (p, q) of a block: the sum over the
    contracted axis of (row p, column k of the left operand) times (row k, column q of the right one). -/
theorem dotHidden_matmul_apply (a : FVec Ideal S5000x128 .bf16) (b : FVec Ideal S128x128 .bf16) (p : Fin 5000) (q : Fin 128) :
    matmul dotHidden none a b (constant (F := Ideal) S5000x128 .f32 0x00000000#32) (ix2 p q) = ∑ k : Fin 128, a (ix2 p k) * b (ix2 k q) := by
  simp only [matmul]
  rw [Ideal.matmul_constant_zero_apply, ← Equiv.sum_comp (ValueIdx.contrEquiv1 dotHidden 128 rfl rfl).symm]
  refine Finset.sum_congr rfl fun k _ => ?_
  have hk := ValueIdx.contrEquiv1_symm_val dotHidden 128 rfl rfl k
  have el : dotHidden.lhsIdx (ix2 p q) ((ValueIdx.contrEquiv1 dotHidden 128 rfl rfl).symm k) = ix2 p k := funext fun a => Fin.ext (by
    match a with
    | ⟨0, _⟩ => exact dotHidden_lhs0 _ _
    | ⟨1, _⟩ => exact (dotHidden_lhs1 _ _).trans hk)
  have er : dotHidden.rhsIdx (ix2 p q) ((ValueIdx.contrEquiv1 dotHidden 128 rfl rfl).symm k) = ix2 k q := funext fun a => Fin.ext (by
    match a with
    | ⟨0, _⟩ => exact (dotHidden_rhs0 _ _).trans hk
    | ⟨1, _⟩ => exact dotHidden_rhs1 _ _)
  rw [el, er]

/-- The contraction record of the second layer's matrix product, under a short name. -/
abbrev dotOutput : DotDims S5000x128 S128x64 S5000x64 := dot_S5000x128_S128x64_S5000x64_1_0_0_1_n_n

theorem dotOutput_lhs0 (i : S5000x64.Idx) (q : dotOutput.contr.Idx) : (dotOutput.lhsIdx i q 0).val = (i 0).val := by
  unfold DotDims.lhsIdx
  rw [dif_neg (show ¬(0 : Fin S5000x128.rank) ∈ dotOutput.lhsBatch by decide), dif_pos (show (0 : Fin S5000x128.rank) ∈ dotOutput.lhsNonContracting by decide)]
  rfl
theorem dotOutput_lhs1 (i : S5000x64.Idx) (q : dotOutput.contr.Idx) : (dotOutput.lhsIdx i q 1).val = (q ⟨0, by decide⟩).val :=
  dotOutput.lhsIdx_val_of_single rfl i q
theorem dotOutput_rhs0 (i : S5000x64.Idx) (q : dotOutput.contr.Idx) : (dotOutput.rhsIdx i q 0).val = (q ⟨0, by decide⟩).val :=
  dotOutput.rhsIdx_val_of_single rfl i q
theorem dotOutput_rhs1 (i : S5000x64.Idx) (q : dotOutput.contr.Idx) : (dotOutput.rhsIdx i q 1).val = (i 1).val := by
  unfold DotDims.rhsIdx
  rw [dif_neg (show ¬(1 : Fin S128x64.rank) ∈ dotOutput.rhsBatch by decide), dif_pos (show (1 : Fin S128x64.rank) ∈ dotOutput.rhsNonContracting by decide)]
  rfl

/-- The second layer's matrix product into a zero accumulator, read at entry (p, q) of a block: the sum over the
    contracted axis of (row p, column k of the left operand) times (row k, column q of the right one). -/
theorem dotOutput_matmul_apply (a : FVec Ideal S5000x128 .bf16) (b : FVec Ideal S128x64 .bf16) (p : Fin 5000) (q : Fin 64) :
    matmul dotOutput none a b (constant (F := Ideal) S5000x64 .f32 0x00000000#32) (ix2 p q) = ∑ k : Fin 128, a (ix2 p k) * b (ix2 k q) := by
  simp only [matmul]
  rw [Ideal.matmul_constant_zero_apply, ← Equiv.sum_comp (ValueIdx.contrEquiv1 dotOutput 128 rfl rfl).symm]
  refine Finset.sum_congr rfl fun k _ => ?_
  have hk := ValueIdx.contrEquiv1_symm_val dotOutput 128 rfl rfl k
  have el : dotOutput.lhsIdx (ix2 p q) ((ValueIdx.contrEquiv1 dotOutput 128 rfl rfl).symm k) = ix2 p k := funext fun a => Fin.ext (by
    match a with
    | ⟨0, _⟩ => exact dotOutput_lhs0 _ _
    | ⟨1, _⟩ => exact (dotOutput_lhs1 _ _).trans hk)
  have er : dotOutput.rhsIdx (ix2 p q) ((ValueIdx.contrEquiv1 dotOutput 128 rfl rfl).symm k) = ix2 k q := funext fun a => Fin.ext (by
    match a with
    | ⟨0, _⟩ => exact (dotOutput_rhs0 _ _).trans hk
    | ⟨1, _⟩ => exact dotOutput_rhs1 _ _)
  rw [el, er]

/-- The first layer's body at entry (p, q) of its block: max(∑ₖ x(p, k) · w(k, q) + b(0, q), 0). -/
theorem hidden_block (x0 : Vec Ideal S5000x128 .f32) (x1 : Vec Ideal S128x128 .bf16) (x2 : Vec Ideal S1x128 .f32) (p : Fin 5000) (q : Fin 128) :
    k0_pay1 (F := Ideal) x0 x1 x2 (ix2 p q)
      = max ((∑ k : Fin 128, x0 (ix2 p k) * x1 (ix2 k q)) + x2 (ix2 (0 : Fin 1) q)) (Ideal.ofBits .f32 0x00000000#32) := by
  unfold k0_pay1
  simp only [shapeCast_self]
  refine congrArg₂ max (congrArg₂ (· + ·) ?_ ?_) rfl
  · exact dotHidden_matmul_apply _ _ p q
  · exact broadcastTo_1b_ab_apply _ _ p q

/-- The second layer's body at entry (p, q) of its block: ∑ₖ x(p, k) · w(k, q) + b(0, q). -/
theorem output_block (x0 : Vec Ideal S5000x128 .f32) (x1 : Vec Ideal S128x64 .bf16) (x2 : Vec Ideal S1x64 .f32) (p : Fin 5000) (q : Fin 64) :
    k1_pay1 (F := Ideal) x0 x1 x2 (ix2 p q)
      = (∑ k : Fin 128, x0 (ix2 p k) * x1 (ix2 k q)) + x2 (ix2 (0 : Fin 1) q) := by
  unfold k1_pay1
  simp only [shapeCast_self]
  refine congrArg₂ (· + ·) ?_ ?_
  · exact dotOutput_matmul_apply _ _ p q
  · exact broadcastTo_1b_ab_apply _ _ p q

end Cert.KernelIdeal.Payload

end
-- ==== Proof.HiddenArray.lean ====
/-
  What the first pipeline leaves in its result array: the first dense layer of the arrays it was entered with.

  The grid has ten points; point t stages rows 5000·t … 5000·t + 4999 of the feature array, the whole weight matrix
  and the whole one-row bias, and writes back rows 5000·t … 5000·t + 4999 of the result. What the body leaves at
  entry (p, q) of its block depends only on row p of the staged features, column q of the weights and entry q of the
  bias, so it is entry (5000·t + p, q) of the layer applied to the whole arrays: every point writes back its block of
  one and the same array. Each row r of the result lies in the block of point r / 5000, so the ten blocks cover the
  array, and the array after the pipeline is the layer of the entry contents, whatever it held before.
-/
import proofs.«164358_j11081015623722_1_alg».proof.Proof.Gen.KernelIdeal.Frame
import proofs.«164358_j11081015623722_1_alg».proof.Proof.Layers
import proofs.«164358_j11081015623722_1_alg».proof.Proof.Payload

set_option maxRecDepth 16384

noncomputable section

namespace Cert.KernelIdeal.HiddenArray

open Cert.KernelIdeal Cert.KernelIdeal.Gen Idealize.ShloMosaic Idealize.ShloMosaic.TcCoe Idealize.SL.Sem Idealize.ShloMosaic.ValueIdx
open Idealize.ShloMosaic.Pipeline (Dat)

-- the buffer contents when the pipeline is entered: a parameter here, the fold's boundary contents in the run
variable (V : (c : Dev nD) → (b : Ref sig .tc) → Buf (Elt Ideal) ((c : Thread nD τ).loc b))

/-- Every access of the body starts at the origin of its buffer. -/
theorem origin : (![0, 0] : Fin 2 → Nat) = fun _ => 0 := funext fun a => by fin_cases a <;> rfl

/-- The block indices at a grid point, decided over the ten points: the features' block moves with the result's
    along the rows, every other block index is zero, and the result's row-block index is at most nine. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every one of the ten row blocks of the result is some point's. -/
theorem index_onto : ∀ q0 : Fin 10, ∃ t : Fin cfg0.N, win0_3.index t = ![q0.val, 0] :=
  (by decide +kernel : ∀ q0 : Fin 10, ∃ t : Fin grid0.N, win0_3.index t = ![q0.val, 0])

/-! ## The staged blocks, read where the result block's entry sits -/

/-- Row p, column k of the features' block at point t is row (row of the result entry), column k of the array. -/
theorem features_at (t : Fin cfg0.N) (p : Fin 5000) (q : Fin 128) (k : Fin 128) :
    ((cfg0.win 0).blk t).view.emb (ix2 p k) = Cert.ReferenceIdeal.Read.lidx_main_v21 (((cfg0.win 3).blk t).view.emb (ix2 p q)) k := by
  obtain ⟨e0, e1, e2, e3, e4, e5, e6, e7⟩ := index_facts t
  funext a; apply Fin.ext
  match a with
  | ⟨0, _⟩ => show win0_0.index t (0 : Fin 2) * 5000 + 1 * p.val = win0_3.index t (0 : Fin 2) * 5000 + 1 * p.val; omega
  | ⟨1, _⟩ => show win0_0.index t (1 : Fin 2) * 128 + 1 * k.val = k.val; omega

/-- Row k, column q of the weights' block is row k, column (column of the result entry) of the weight matrix. -/
theorem weights_at (t : Fin cfg0.N) (p : Fin 5000) (q : Fin 128) (k : Fin 128) :
    ((cfg0.win 1).blk t).view.emb (ix2 k q) = Cert.ReferenceIdeal.Read.ridx_main_v21 (((cfg0.win 3).blk t).view.emb (ix2 p q)) k := by
  obtain ⟨e0, e1, e2, e3, e4, e5, e6, e7⟩ := index_facts t
  funext a; apply Fin.ext
  match a with
  | ⟨0, _⟩ => show win0_1.index t (0 : Fin 2) * 128 + 1 * k.val = k.val; omega
  | ⟨1, _⟩ => show win0_1.index t (1 : Fin 2) * 128 + 1 * q.val = win0_3.index t (1 : Fin 2) * 128 + 1 * q.val; omega

/-- Entry q of the bias's block is entry (column of the result entry) of the one-row bias. -/
theorem bias_at (t : Fin cfg0.N) (p : Fin 5000) (q : Fin 128) :
    ((cfg0.win 2).blk t).view.emb (ix2 (0 : Fin 1) q) = Cert.ReferenceIdeal.Read.idx_main_v23 (((cfg0.win 3).blk t).view.emb (ix2 p q)) := by
  obtain ⟨e0, e1, e2, e3, e4, e5, e6, e7⟩ := index_facts t
  funext a; apply Fin.ext
  match a with
  | ⟨0, _⟩ => show win0_2.index t (0 : Fin 2) * 1 + 1 * 0 = 0; omega
  | ⟨1, _⟩ => show win0_2.index t (1 : Fin 2) * 128 + 1 * q.val = win0_3.index t (1 : Fin 2) * 128 + 1 * q.val; omega

/-! ## What a point writes back -/

/-- What point t writes back is block t of the layer of the entry contents. -/
theorem flushed (c : Dev nD) (t : Fin cfg0.N) :
    (dat0 (F := Ideal) V c).flushed 3 t
      = ((cfg0.win 3).blk t).view.read (Elt Ideal) (Cert.GraphConv.hidden (V c main_v20) (V c main_v21) (V c main_v22)) := by
  show (cfg0.win 3).cut (grid0.coords t) ((dat0 (F := Ideal) V c).after 3 t) = _
  rw [after0_3]
  unfold out0_3
  rw [View.canon_unit_zero origin]
  simp only [View.ld_unit_zero (S := S5000x128) origin, View.ld_unit_zero (S := S128x128) origin, View.ld_unit_zero (S := S1x128) origin]
  refine funext fun (j : S5000x128.Idx) => ?_
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = Cert.GraphConv.hidden (V c main_v20) (V c main_v21) (V c main_v22) (((cfg0.win 3).blk t).view.emb (ix2 p q))
  refine (Payload.hidden_block (iblk0 V c 0 t) (iblk0 V c 1 t) (iblk0 V c 2 t) p q).trans ?_
  unfold Cert.GraphConv.hidden
  refine congrArg₂ max (congrArg₂ (· + ·) (Finset.sum_congr rfl fun k _ => congrArg₂ (· * ·) ?_ ?_) ?_) rfl
  · show V c main_v20 (((cfg0.win 0).blk t).view.emb (ix2 p k)) = _
    rw [features_at t p q k]
  · show V c main_v21 (((cfg0.win 1).blk t).view.emb (ix2 k q)) = _
    rw [weights_at t p q k]
  · show V c main_v22 (((cfg0.win 2).blk t).view.emb (ix2 (0 : Fin 1) q)) = _
    rw [bias_at t p q]

/-! ## The blocks cover the array -/

/-- An index of the result array is in point t's block iff each coordinate is in the block's range on its axis. -/
theorem mem_block (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v23).slice (win0_3.rect t)).set ↔ _
  rw [View.set_slice_whole, Rect.mem_set_unit]
  exact Iff.rfl

/-- Row r of the result lies in the block of the point whose row-block index is r / 5000. -/
theorem covered (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array after the pipeline: the first dense layer of the contents the pipeline was entered with. -/
theorem array (c : Dev nD) :
    (dat0 (F := Ideal) V c).arrAt 3 cfg0.N = Cert.GraphConv.hidden (V c main_v20) (V c main_v21) (V c main_v22) :=
  (dat0 (F := Ideal) V c).arrAt_eq_of_cover 3 _ (fun t _ => flushed V c t) covered

end Cert.KernelIdeal.HiddenArray

end
-- ==== Proof.OutputArray.lean ====
/-
  What the second pipeline leaves in its result array: the second dense layer of the arrays it was entered with.

  The grid has ten points; point t stages rows 5000·t … 5000·t + 4999 of the feature array, the whole weight matrix
  and the whole one-row bias, and writes back rows 5000·t … 5000·t + 4999 of the result. What the body leaves at
  entry (p, q) of its block depends only on row p of the staged features, column q of the weights and entry q of the
  bias, so it is entry (5000·t + p, q) of the layer applied to the whole arrays: every point writes back its block of
  one and the same array. Each row r of the result lies in the block of point r / 5000, so the ten blocks cover the
  array, and the array after the pipeline is the layer of the entry contents, whatever it held before.
-/
import proofs.«164358_j11081015623722_1_alg».proof.Proof.Gen.KernelIdeal.Frame
import proofs.«164358_j11081015623722_1_alg».proof.Proof.Layers
import proofs.«164358_j11081015623722_1_alg».proof.Proof.Payload

set_option maxRecDepth 16384

noncomputable section

namespace Cert.KernelIdeal.OutputArray

open Cert.KernelIdeal Cert.KernelIdeal.Gen Idealize.ShloMosaic Idealize.ShloMosaic.TcCoe Idealize.SL.Sem Idealize.ShloMosaic.ValueIdx
open Idealize.ShloMosaic.Pipeline (Dat)

-- the buffer contents when the pipeline is entered: a parameter here, the fold's boundary contents in the run
variable (V : (c : Dev nD) → (b : Ref sig .tc) → Buf (Elt Ideal) ((c : Thread nD τ).loc b))

/-- Every access of the body starts at the origin of its buffer. -/
theorem origin : (![0, 0] : Fin 2 → Nat) = fun _ => 0 := funext fun a => by fin_cases a <;> rfl

/-- The block indices at a grid point, decided over the ten points: the features' block moves with the result's
    along the rows, every other block index is zero, and the result's row-block index is at most nine. -/
theorem index_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every one of the ten row blocks of the result is some point's. -/
theorem index_onto : ∀ q0 : Fin 10, ∃ t : Fin cfg1.N, win1_3.index t = ![q0.val, 0] :=
  (by decide +kernel : ∀ q0 : Fin 10, ∃ t : Fin grid1.N, win1_3.index t = ![q0.val, 0])

/-! ## The staged blocks, read where the result block's entry sits -/

/-- Row p, column k of the features' block at point t is row (row of the result entry), column k of the array. -/
theorem features_at (t : Fin cfg1.N) (p : Fin 5000) (q : Fin 64) (k : Fin 128) :
    ((cfg1.win 0).blk t).view.emb (ix2 p k) = Cert.ReferenceIdeal.Read.lidx_main_v39 (((cfg1.win 3).blk t).view.emb (ix2 p q)) k := by
  obtain ⟨e0, e1, e2, e3, e4, e5, e6, e7⟩ := index_facts t
  funext a; apply Fin.ext
  match a with
  | ⟨0, _⟩ => show win1_0.index t (0 : Fin 2) * 5000 + 1 * p.val = win1_3.index t (0 : Fin 2) * 5000 + 1 * p.val; omega
  | ⟨1, _⟩ => show win1_0.index t (1 : Fin 2) * 128 + 1 * k.val = k.val; omega

/-- Row k, column q of the weights' block is row k, column (column of the result entry) of the weight matrix. -/
theorem weights_at (t : Fin cfg1.N) (p : Fin 5000) (q : Fin 64) (k : Fin 128) :
    ((cfg1.win 1).blk t).view.emb (ix2 k q) = Cert.ReferenceIdeal.Read.ridx_main_v39 (((cfg1.win 3).blk t).view.emb (ix2 p q)) k := by
  obtain ⟨e0, e1, e2, e3, e4, e5, e6, e7⟩ := index_facts t
  funext a; apply Fin.ext
  match a with
  | ⟨0, _⟩ => show win1_1.index t (0 : Fin 2) * 128 + 1 * k.val = k.val; omega
  | ⟨1, _⟩ => show win1_1.index t (1 : Fin 2) * 64 + 1 * q.val = win1_3.index t (1 : Fin 2) * 64 + 1 * q.val; omega

/-- Entry q of the bias's block is entry (column of the result entry) of the one-row bias. -/
theorem bias_at (t : Fin cfg1.N) (p : Fin 5000) (q : Fin 64) :
    ((cfg1.win 2).blk t).view.emb (ix2 (0 : Fin 1) q) = Cert.ReferenceIdeal.Read.idx_main_v41 (((cfg1.win 3).blk t).view.emb (ix2 p q)) := by
  obtain ⟨e0, e1, e2, e3, e4, e5, e6, e7⟩ := index_facts t
  funext a; apply Fin.ext
  match a with
  | ⟨0, _⟩ => show win1_2.index t (0 : Fin 2) * 1 + 1 * 0 = 0; omega
  | ⟨1, _⟩ => show win1_2.index t (1 : Fin 2) * 64 + 1 * q.val = win1_3.index t (1 : Fin 2) * 64 + 1 * q.val; omega

/-! ## What a point writes back -/

/-- What point t writes back is block t of the layer of the entry contents. -/
theorem flushed (c : Dev nD) (t : Fin cfg1.N) :
    (dat1 (F := Ideal) V c).flushed 3 t
      = ((cfg1.win 3).blk t).view.read (Elt Ideal) (Cert.GraphConv.output (V c main_v36) (V c main_v37) (V c main_v38)) := by
  show (cfg1.win 3).cut (grid1.coords t) ((dat1 (F := Ideal) V c).after 3 t) = _
  rw [after1_3]
  unfold out1_3
  rw [View.canon_unit_zero origin]
  simp only [View.ld_unit_zero (S := S5000x128) origin, View.ld_unit_zero (S := S128x64) origin, View.ld_unit_zero (S := S1x64) origin]
  refine funext fun (j : S5000x64.Idx) => ?_
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (ix2 p q)
    = Cert.GraphConv.output (V c main_v36) (V c main_v37) (V c main_v38) (((cfg1.win 3).blk t).view.emb (ix2 p q))
  refine (Payload.output_block (iblk1 V c 0 t) (iblk1 V c 1 t) (iblk1 V c 2 t) p q).trans ?_
  unfold Cert.GraphConv.output
  refine congrArg₂ (· + ·) (Finset.sum_congr rfl fun k _ => congrArg₂ (· * ·) ?_ ?_) ?_
  · show V c main_v36 (((cfg1.win 0).blk t).view.emb (ix2 p k)) = _
    rw [features_at t p q k]
  · show V c main_v37 (((cfg1.win 1).blk t).view.emb (ix2 k q)) = _
    rw [weights_at t p q k]
  · show V c main_v38 (((cfg1.win 2).blk t).view.emb (ix2 (0 : Fin 1) q)) = _
    rw [bias_at t p q]

/-! ## The blocks cover the array -/

/-- An index of the result array is in point t's block iff each coordinate is in the block's range on its axis. -/
theorem mem_block (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v39).slice (win1_3.rect t)).set ↔ _
  rw [View.set_slice_whole, Rect.mem_set_unit]
  exact Iff.rfl

/-- Row r of the result lies in the block of the point whose row-block index is r / 5000. -/
theorem covered (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The result array after the pipeline: the second dense layer of the contents the pipeline was entered with. -/
theorem array (c : Dev nD) :
    (dat1 (F := Ideal) V c).arrAt 3 cfg1.N = Cert.GraphConv.output (V c main_v36) (V c main_v37) (V c main_v38) :=
  (dat1 (F := Ideal) V c).arrAt_eq_of_cover 3 _ (fun t _ => flushed V c t) covered

end Cert.KernelIdeal.OutputArray

end
-- ==== Proof.KernelValue.lean ====
/-
  The idealized kernel's result is the network of its arguments.

  The result buffer is the second pipeline's output array. That array is the second dense layer of what the second
  pipeline was entered with: the average over in-neighbours of the first pipeline's output array, the second weights
  and the second bias. The first pipeline's output array is the first dense layer of what it was entered with: the
  average of the input features, the first weights and the first bias. Rounding the weights to the narrow format does
  not change an extended real, and a bias reshaped to one row is the bias broadcast to one row: both read the bias at
  the column. Composed, this is the network average, dense with maximum, average, dense of the seven arguments.
-/
import proofs.«164358_j11081015623722_1_alg».proof.Proof.HostStretches
import proofs.«164358_j11081015623722_1_alg».proof.Proof.HiddenArray
import proofs.«164358_j11081015623722_1_alg».proof.Proof.OutputArray
import Idealize.ShloMosaic.Lib.ValueLayout

set_option maxRecDepth 16384

noncomputable section

namespace Cert.KernelIdeal.NetValue

open Cert.KernelIdeal Cert.KernelIdeal.Gen Cert.KernelIdeal.HostValues
open Idealize.ShloMosaic Idealize.ShloMosaic.TcCoe Idealize.SL.Sem Idealize.ShloMosaic.ValueIdx
open Cert.GraphConv

/-- The first bias reshaped to one row is the first bias broadcast to one row: entry (0, q) of either is entry q. -/
theorem bias_row_hidden {F : FTy → Type} [FloatOps F] (x : (⟨S128, .f32⟩ : BufTy).Contents (Elt F)) :
    (fun i => shapeCast S1x128 x shapeCasts_S128_S1x128 i) = Cert.ReferenceIdeal.Read.val_main_v22 (F := F) x := by
  refine funext fun (j : S1x128.Idx) => ?_
  obtain ⟨u, q, rfl⟩ : ∃ (u : Fin 1) (q : Fin 128), j = ix2 u q := ⟨j 0, j 1, eq_ix2 j⟩
  rw [Cert.ReferenceIdeal.Read.val_main_v22_apply]
  exact (shapeCast_a_1a_apply x shapeCasts_S128_S1x128 u q).trans
    (congrArg x (funext fun a => match a with | ⟨0, _⟩ => rfl))

/-- The same for the second bias. -/
theorem bias_row_output {F : FTy → Type} [FloatOps F] (x : (⟨S64, .f32⟩ : BufTy).Contents (Elt F)) :
    (fun i => shapeCast S1x64 x shapeCasts_S64_S1x64 i) = Cert.ReferenceIdeal.Read.val_main_v40 (F := F) x := by
  refine funext fun (j : S1x64.Idx) => ?_
  obtain ⟨u, q, rfl⟩ : ∃ (u : Fin 1) (q : Fin 64), j = ix2 u q := ⟨j 0, j 1, eq_ix2 j⟩
  rw [Cert.ReferenceIdeal.Read.val_main_v40_apply]
  exact (shapeCast_a_1a_apply x shapeCasts_S64_S1x64 u q).trans
    (congrArg x (funext fun a => match a with | ⟨0, _⟩ => rfl))

variable (m : (ℓ : Loc nD τ sig) → Buf (Elt Ideal) ℓ) (ρ : Dev nD → PrngReg)

/-- The first pipeline's output array: the first dense layer of the averaged input features. -/
theorem hidden_features (c : Dev nD) :
    W2 m ρ c (Proc.devRef .tc main_v23)
      = hidden (average (m ((c : Thread nD τ).loc main_arg0)) (m ((c : Thread nD τ).loc main_arg1)) (m ((c : Thread nD τ).loc main_arg2))) (m ((c : Thread nD τ).loc main_arg3)) (Cert.ReferenceIdeal.Read.val_main_v22 (F := Ideal) (m ((c : Thread nD τ).loc main_arg4))) := by
  refine ((W2_arr m ρ c 3).trans (HiddenArray.array (V1 m ρ) c)).trans ?_
  show hidden (W1 m ρ c (Proc.devRef .tc main_v20)) (W1 m ρ c (Proc.devRef .tc main_v21)) (W1 m ρ c (Proc.devRef .tc main_v22)) = _
  rw [entry0_features m ρ c, entry0_weights m ρ c, entry0_bias m ρ c, bias_row_hidden]
  rfl

/-- The result buffer after the run: the network of the seven arguments. -/
theorem result (c : Dev nD) :
    W4 m ρ c (Proc.devRef .tc main_v39) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W4_arr m ρ c 3).trans (OutputArray.array (V3 m ρ) c)).trans ?_
  show output (W3 m ρ c (Proc.devRef .tc main_v36)) (W3 m ρ c (Proc.devRef .tc main_v37)) (W3 m ρ c (Proc.devRef .tc main_v38)) = _
  rw [entry1_features m ρ c, entry1_weights m ρ c, entry1_bias m ρ c, bias_row_output, hidden_features m ρ c]
  rfl

end Cert.KernelIdeal.NetValue

end
-- ==== Proof.lean ====
/-
  Two layers of graph convolution on 50000 nodes and 800000 edges: the kernel against its reference, on the extended
  reals.

  A layer averages a feature array over in-neighbours — every edge carries its source node's row to its target
  node, a node adds up what arrives and scales the sum by 1 / max(in-degree, 1) — and then applies a dense map,
  entry (r, c) ↦ ∑ₖ X(r, k) · W(k, c) + b(c); the first layer is followed by a maximum with zero. The reference
  does all of it on the host. The kernel does the averages on the host, by the same operations in the same order,
  and each dense map in a pipeline of ten grid points over blocks of 5000 rows, the weights rounded to a narrow format
  before the matrix product into a zero accumulator, the bias reshaped to one row and spread over the block.

  On the extended reals rounding changes nothing, the product into a zero accumulator is the plain sum over the
  contracted axis, and a point's output block is the block of ONE array, the dense layer of the whole input arrays;
  the ten blocks tile the 50000 rows. So the kernel's result is the same composite — average, dense with maximum,
  average, dense — of the seven arguments as the reference's, term for term: no law of arithmetic beyond that is
  used, and the finiteness of the inputs is never needed. The averages are never opened: both sides carry them as
  one function of the feature array and the two edge lists.

  The idealization rewrote no operation, so that claim is trivial; the three frame claims are the programs' runs with
  the result forgotten.
-/
import proofs.«164358_j11081015623722_1_alg».proof.Defs
import proofs.«164358_j11081015623722_1_alg».proof.Proof.Gen.Kernel
import proofs.«164358_j11081015623722_1_alg».proof.Proof.Gen.Kernel.Skeleton
import proofs.«164358_j11081015623722_1_alg».proof.Proof.Gen.Kernel.Launch
import proofs.«164358_j11081015623722_1_alg».proof.Proof.Gen.Kernel.Points
import proofs.«164358_j11081015623722_1_alg».proof.Proof.Gen.Kernel.Frame
import proofs.«164358_j11081015623722_1_alg».proof.Proof.Gen.KernelIdeal
import proofs.«164358_j11081015623722_1_alg».proof.Proof.Gen.KernelIdeal.Skeleton
import proofs.«164358_j11081015623722_1_alg».proof.Proof.Gen.KernelIdeal.Launch
import proofs.«164358_j11081015623722_1_alg».proof.Proof.Gen.KernelIdeal.Points
import proofs.«164358_j11081015623722_1_alg».proof.Proof.Gen.KernelIdeal.Frame
import proofs.«164358_j11081015623722_1_alg».proof.Proof.Gen.ReferenceIdeal
import proofs.«164358_j11081015623722_1_alg».proof.Proof.Gen.ReferenceIdeal.Run
import proofs.«164358_j11081015623722_1_alg».proof.Proof.Gen.ReferenceIdeal.Read
import proofs.«164358_j11081015623722_1_alg».proof.Proof.Gen.Pre_finite_inputs
import proofs.«164358_j11081015623722_1_alg».proof.Proof.Layers
import proofs.«164358_j11081015623722_1_alg».proof.Proof.KernelRun
import proofs.«164358_j11081015623722_1_alg».proof.Proof.KernelValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The idealized reference: its run with the result forgotten. -/
theorem frame_reference_ideal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both idealized programs end with the network of the arguments in their
    result buffers: the kernel by reading its two pipelines' output arrays back through the two host stretches, the
    reference by reading its run one operation at a time. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.GraphConv.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.NetValue.result m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2]
    exact (Cert.ReferenceIdeal.Read.val_main_v42_eq _ _ _ _ _ _ _).trans (Cert.GraphConv.reference_net _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
